-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 20
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S1x128, .f32⟩
  | .hbm, ⟨19, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_1_0_0_n_n_wf : DotDims.WF S100000x128 S128x128 S100000x128 [1] [1] [0] [0] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.LibRowsTimesRows.lean ====
/-
  The affine layer `x · Wᵀ + b` over the extended reals, for arrays of any sizes.

  `h` is an `[a, K]` array (one row per sample), `W` a `[b, K]` array (one row of weights per output feature) and
  `β` gives one bias per output feature. `linear h W β` is the `[a, b]` array whose entry `(r, q)` is
  `(∑ k, h[r, k] · W[q, k]) + β q`: row `r` of `h` against row `q` of `W`. Both operands are contracted along
  their SECOND axis, so no transpose is ever formed.

  Two spellings of this array are read here, entry by entry, as `linear`:
  * the device's — both operands narrowed to a smaller float format (the identity on an extended real), multiplied
    into an all-zero accumulator, plus a `[1, b]` bias row broadcast down the `a` rows (`device_apply`);
  * the host's — a `dot_general` of the two operands, plus a `[b]` bias vector first given a unit leading axis and
    then broadcast down the `a` rows (`host_apply`).
  What the dimension numbers of the product have to say is collected in `ContractsRows`: one contracted axis, of
  extent `K`; the left operand read at (row of the result, `k`) and the right operand at (column of the result, `k`).
  No entry has to be finite: only the definitions of the operations on the extended reals are used, and a finite sum
  re-indexed along a bijection.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowsTimesRows

open Idealize.ShloMosaic Idealize.ShloMosaic.ValueIdx
open scoped BigOperators

variable {a K b : ℕ}

/-! ## The layer as one function -/

/-- Entry `(p, q)` of the layer: row `p` of `h` against row `q` of `W`, plus the bias of output feature `q`. -/
def linearAt (h : (⟨2, ![a, K]⟩ : Shape).Idx → EReal) (W : (⟨2, ![b, K]⟩ : Shape).Idx → EReal) (β : Fin b → EReal)
    (p : Fin a) (q : Fin b) : EReal :=
  (∑ k : Fin K, h (ix2 p k) * W (ix2 q k)) + β q

/-- The whole `[a, b]` array `h · Wᵀ + β`. -/
def linear (h : (⟨2, ![a, K]⟩ : Shape).Idx → EReal) (W : (⟨2, ![b, K]⟩ : Shape).Idx → EReal) (β : Fin b → EReal) :
    (⟨2, ![a, b]⟩ : Shape).Idx → EReal :=
  fun i => linearAt h W β (i 0) (i 1)

theorem linear_apply (h : (⟨2, ![a, K]⟩ : Shape).Idx → EReal) (W : (⟨2, ![b, K]⟩ : Shape).Idx → EReal) (β : Fin b → EReal)
    (p : Fin a) (q : Fin b) : linear h W β (ix2 p q) = linearAt h W β p q := rfl

/-! ## The product's dimension numbers -/

/-- The dimension numbers of an `[a, K] × [b, K] → [a, b]` product that contracts the second axis of both operands:
    the contraction ranges over ONE axis, of extent `K`; at entry `j` of the result and contraction index `k` the left
    operand is read at `(j 0, k)` and the right operand at `(j 1, k)`. -/
structure ContractsRows (d : DotDims ⟨2, ![a, K]⟩ ⟨2, ![b, K]⟩ ⟨2, ![a, b]⟩) : Prop where
  rank : d.contr.rank = 1
  size : d.contr.size ⟨0, by omega⟩ = K
  lhs_row : ∀ (j : (⟨2, ![a, b]⟩ : Shape).Idx) (k : d.contr.Idx), (d.lhsIdx j k 0).val = (j 0).val
  lhs_col : ∀ (j : (⟨2, ![a, b]⟩ : Shape).Idx) (k : d.contr.Idx), (d.lhsIdx j k 1).val = (k ⟨0, by omega⟩).val
  rhs_row : ∀ (j : (⟨2, ![a, b]⟩ : Shape).Idx) (k : d.contr.Idx), (d.rhsIdx j k 0).val = (j 1).val
  rhs_col : ∀ (j : (⟨2, ![a, b]⟩ : Shape).Idx) (k : d.contr.Idx), (d.rhsIdx j k 1).val = (k ⟨0, by omega⟩).val

variable {d : DotDims ⟨2, ![a, K]⟩ ⟨2, ![b, K]⟩ ⟨2, ![a, b]⟩}

/-- The sum over the contraction's index set, re-indexed by the contracted position `k < K`: at entry `(p, q)` the
    products are `lhs[p, k] · rhs[q, k]`. -/
theorem ContractsRows.sum_eq (H : ContractsRows d) (lhs : (⟨2, ![a, K]⟩ : Shape).Idx → EReal)
    (rhs : (⟨2, ![b, K]⟩ : Shape).Idx → EReal) (p : Fin a) (q : Fin b) :
    ∑ k : d.contr.Idx, lhs (d.lhsIdx (ix2 p q) k) * rhs (d.rhsIdx (ix2 p q) k)
      = ∑ k : Fin K, lhs (ix2 p k) * rhs (ix2 q k) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun x => Fin.ext (by
    match x with
    | ⟨0, _⟩ => exact H.lhs_row _ _
    | ⟨1, _⟩ => exact (H.lhs_col _ _).trans hk)
  have er : d.rhsIdx (ix2 p q) ((contrEquiv1 d K H.rank H.size).symm k) = ix2 q k := funext fun x => Fin.ext (by
    match x with
    | ⟨0, _⟩ => exact H.rhs_row _ _
    | ⟨1, _⟩ => exact (H.rhs_col _ _).trans hk)
  rw [el, er]

/-! ## The device's spelling -/

/-- Both operands narrowed, multiplied into a zero accumulator, plus a `[1, b]` bias row broadcast down the rows:
    entry `(p, q)` is the layer's, the bias of feature `q` being the row's entry `(0, q)`. Narrowing a float format
    does nothing to an extended real, and the zero accumulator adds nothing. -/
theorem device_apply {φx φw ψx ψw : FTy} (H : ContractsRows d) (prec : Option ContractPrecision)
    (x : FVec Ideal ⟨2, ![a, K]⟩ φx) (w : FVec Ideal ⟨2, ![b, K]⟩ φw) (row : FVec Ideal ⟨2, ![1, b]⟩ .f32)
    (hx : ψx.bits < φx.bits) (hw : ψw.bits < φw.bits)
    (hb : (⟨2, ![1, b]⟩ : Shape).Broadcasts ⟨2, ![a, b]⟩) (p : Fin a) (q : Fin b) :
    addf (matmul d prec (truncf ψx x hx) (truncf ψw w hw) (constant (F := Ideal) ⟨2, ![a, b]⟩ .f32 0x00000000#32))
        (broadcastTo ⟨2, ![a, b]⟩ row hb) (ix2 p q)
      = linearAt x w (fun c => row (ix2 (0 : Fin 1) c)) p q := by
  rw [addf_apply, broadcastTo_1b_ab_apply]
  show FloatOps.matmul d prec (truncf ψx x hx) (truncf ψw w hw) (constant (F := Ideal) ⟨2, ![a, b]⟩ .f32 0x00000000#32) (ix2 p q) + _ = _
  rw [Ideal.matmul_constant_zero_apply, H.sum_eq]
  rfl

/-! ## The host's spelling -/

/-- A `[b]` vector given a unit leading axis and then broadcast down `a` rows reads, at `(p, q)`, the vector at `q`. -/
theorem biasRows_apply {α : Type} (vec : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    broadcastInDim ⟨2, ![a, b]⟩ ![0, 1] h2 (broadcastInDim ⟨2, ![1, b]⟩ ![1] h1 vec) (ix2 p q) = vec (ix1 q) := by
  rw [broadcastInDim_apply ![0, 1] h2 _ (ix2 p q) (ix2 (0 : Fin 1) q) (fun x => by
    match x with
    | ⟨0, _⟩ => rfl
    | ⟨1, _⟩ =>
      show q.val = if b = 1 then 0 else q.val
      split
      · have := q.isLt; omega
      · rfl)]
  exact broadcastInDim_apply ![1] h1 vec (ix2 (0 : Fin 1) q) (ix1 q) (fun x => by
    match x with
    | ⟨0, _⟩ =>
      show q.val = if b = 1 then 0 else q.val
      split
      · have := q.isLt; omega
      · rfl)

/-- The host's product plus the bias vector broadcast down the rows: entry `(p, q)` is the layer's, the bias of
    feature `q` being the vector's entry `q`. -/
theorem host_apply {φx φw : FTy} (H : ContractsRows d) (prec : Option ContractPrecision)
    (x : FVec Ideal ⟨2, ![a, K]⟩ φx) (w : FVec Ideal ⟨2, ![b, K]⟩ φw) (vec : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (q : Fin b) :
    addf (Host.dotGeneral d prec x w) (broadcastInDim ⟨2, ![a, b]⟩ ![0, 1] h2 (broadcastInDim ⟨2, ![1, b]⟩ ![1] h1 vec)) (ix2 p q)
      = linearAt x w (fun c => vec (ix1 c)) p q := by
  rw [addf_apply, biasRows_apply]
  show FloatOps.dotGeneral d prec .single x w (ix2 p q) + _ = _
  rw [Ideal.dotGeneral_apply, H.sum_eq]
  rfl

end Cert.RowsTimesRows

end
-- ==== Proof.KernelBlock.lean ====
/-
  One block of the layer, as the kernel body computes it.

  At a grid point the body holds a block of 5000 rows of the aggregated features (`[5000, 128]`), the whole weight
  matrix (`[128, 128]`, one row per output feature) and the bias as a `[1, 128]` row. It narrows the two operands to
  bf16, multiplies them into an all-zero f32 accumulator contracting the second axis of both, and adds the bias row
  broadcast down the 5000 rows. Read on the extended reals, entry `(p, q)` of what it stores is
  `(∑ k, x[p, k] · w[q, k]) + bias[0, q]`: the affine layer `x · wᵀ + bias` of these three blocks.
-/
import proofs.«100498_j23003844838036_1_alg».proof.Proof.Gen.KernelIdeal.Skeleton
import proofs.«100498_j23003844838036_1_alg».proof.Proof.LibRowsTimesRows

noncomputable section

namespace Cert.KernelIdeal.Block

open Cert.KernelIdeal Cert.KernelIdeal.Gen Idealize.ShloMosaic Idealize.ShloMosaic.ValueIdx Cert.RowsTimesRows

/-- The body's product contracts the second axis of both operands: one contracted axis of extent 128, the block of
    rows read at (row, k) and the weights at (output feature, k). -/
theorem dot_contractsRows :
    ContractsRows (a := 5000) (K := 128) (b := 128) dot_S5000x128_S128x128_S5000x128_1_1_0_0_n_n where
  rank := rfl
  size := rfl
  lhs_row := fun j k => by
    unfold DotDims.lhsIdx
    rw [dif_neg (show ¬(0 : Fin S5000x128.rank) ∈ dot_S5000x128_S128x128_S5000x128_1_1_0_0_n_n.lhsBatch by decide),
      dif_pos (show (0 : Fin S5000x128.rank) ∈ dot_S5000x128_S128x128_S5000x128_1_1_0_0_n_n.lhsNonContracting by decide)]
    rfl
  lhs_col := fun j k => dot_S5000x128_S128x128_S5000x128_1_1_0_0_n_n.lhsIdx_val_of_single rfl j k
  rhs_row := fun j k => by
    unfold DotDims.rhsIdx
    rw [dif_neg (show ¬(0 : Fin S128x128.rank) ∈ dot_S5000x128_S128x128_S5000x128_1_1_0_0_n_n.rhsBatch by decide),
      dif_pos (show (0 : Fin S128x128.rank) ∈ dot_S5000x128_S128x128_S5000x128_1_1_0_0_n_n.rhsNonContracting by decide)]
    rfl
  rhs_col := fun j k => dot_S5000x128_S128x128_S5000x128_1_1_0_0_n_n.rhsIdx_val_of_single rfl j k

/-- What the body stores, read at `(p, q)`: row `p` of the block of rows against row `q` of the weights, plus the
    bias row's entry `(0, q)`. The two shape casts are to the shape the value already has. -/
theorem payload_apply (x : FVec Ideal S5000x128 .f32) (w : FVec Ideal S128x128 .f32) (bias : FVec Ideal S1x128 .f32)
    (p : Fin 5000) (q : Fin 128) :
    k0_pay1 (F := Ideal) x w bias (ix2 p q) = linearAt x w (fun c => bias (ix2 (0 : Fin 1) c)) p q := by
  unfold k0_pay1
  rw [shapeCast_self x, shapeCast_self bias]
  exact device_apply dot_contractsRows none x w bias _ _ _ p q

end Cert.KernelIdeal.Block

end
-- ==== Proof.KernelEntry.lean ====
/-
  What the region finds when it is entered.

  Before the region the host aggregates the features over the edges — a source number below zero is counted from the
  end, the rows of the features at the source nodes are gathered, and those rows are scatter-added into an all-zero
  array at the target nodes — and views the bias vector `[128]` as a `[1, 128]` row. The region's first window reads
  the aggregate and its third window the bias row; the weights are an argument, untouched.
-/
import proofs.«100498_j23003844838036_1_alg».proof.Proof.Gen.KernelIdeal.Frame
import proofs.«100498_j23003844838036_1_alg».proof.Proof.LibRowsTimesRows
import Idealize.ShloMosaic.Lib.StableHlo.Run
import Idealize.ShloMosaic.Lib.ValueLayout

set_option maxRecDepth 16384

noncomputable section

namespace Cert.KernelIdeal.Entry

open Cert.KernelIdeal Cert.KernelIdeal.Gen Idealize.ShloMosaic Idealize.ShloMosaic.TcCoe Idealize.SL.Sem
open Idealize.ShloMosaic.ValueIdx Cert.RowsTimesRows
open Idealize.ShloMosaic.Pipeline (Dat)

variable (m : (ℓ : Loc nD τ sig) → Buf (Elt Ideal) ℓ) (ρ : Dev nD → PrngReg)

/-- The features aggregated over the edges: a source number below zero is counted from the end, the rows of the
    features at the source nodes are gathered, and those rows are scatter-added into an all-zero array at the target
    nodes. One function of the features, the sources and the targets; nothing below looks inside it. -/
def aggregate (x0 : FVec Ideal S100000x128 .f32) (x1 x2 : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x2)
    (Host.gather gather_S100000x128_S1600000x1_S1600000x128_1_0_n_n_0_1_1128 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- The region finds the aggregate of the launch contents in its first window's array. -/
theorem entry_rows (c : Dev nD) :
    (V m c main_v9 : FVec Ideal S100000x128 .f32)
      = aggregate (m ((c : Thread nD τ).loc main_arg0)) (m ((c : Thread nD τ).loc main_arg1)) (m ((c : Thread nD τ).loc main_arg2)) := by
  dsimp only [Gen.V, Gen.hostOps0]
  after_results
  rfl

/-- The region finds the bias vector, viewed as one row, in its third window's array. -/
theorem entry_bias (c : Dev nD) (q : Fin 128) :
    (V m c main_v10 : FVec Ideal S1x128 .f32) (ix2 (0 : Fin 1) q) = m ((c : Thread nD τ).loc main_arg4) (ix1 q) := by
  have e : (V m c main_v10 : FVec Ideal S1x128 .f32)
      = shapeCast S1x128 (m ((c : Thread nD τ).loc main_arg4) : FVec Ideal S128 .f32) shapeCasts_S128_S1x128 := by
    dsimp only [Gen.V, Gen.hostOps0]
    after_results
    rfl
  rw [e]
  exact shapeCast_a_1a_apply _ _ 0 q

end Cert.KernelIdeal.Entry

end
-- ==== Proof.KernelBlocks.lean ====
/-
  The region's windows, block by block.

  The region walks the 100000 nodes in 20 blocks of 5000 rows. At point `t` the first window's block is rows
  `5000·t … 5000·t + 4999` of the aggregate and the result window's block is the same rows of the result; the weights
  and the bias row are read whole at every point. The 20 result blocks tile the array: row `r` is in block `r / 5000`.
-/
import proofs.«100498_j23003844838036_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 20 points: the rows window moves with the result window, whose block index on the
    row axis is below 20; every other block index is zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 ∧ win0_3.index t (1 : Fin 2) = 0 :=
  (by decide +kernel : ∀ t : Fin grid0.N, _)

/-- Every block of 5000 rows is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-! The three input windows' blocks, read off ANY array of the window's type (the region's arrays are host-computed
    functions of the inputs; nothing here depends on what they hold). -/

/-- The rows block at point `t` is 5000 rows of its array: its entry `(p, k)` is the array's entry at any index `i`
    whose row is `5000 · (the result block's row index at t) + p` and whose column is `k`. -/
theorem read_rows (c : Dev nD) (A : Buf (Elt Ideal) ((c : Thread nD τ).loc (Pipeline.arrRef spec0 0))) (t : Fin cfg0.N)
    (p : Fin 5000) (k : Fin 128) (i : S100000x128.Idx)
    (h0 : (i 0).val = win0_3.index t (0 : Fin 2) * 5000 + p.val) (h1 : (i 1).val = k.val) :
    ((cfg0.win 0).blk t).view.read (Elt Ideal) A (ix2 p k) = A i := by
  obtain ⟨e0, e1, -, -, -, -, -, -⟩ := idx_facts t
  show A (((cfg0.win 0).blk t).view.emb (ix2 p k)) = A i
  refine congrArg A (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The weights block is its whole array at every point. -/
theorem read_weights (c : Dev nD) (A : Buf (Elt Ideal) ((c : Thread nD τ).loc (Pipeline.arrRef spec0 1))) (t : Fin cfg0.N)
    (q k : Fin 128) :
    ((cfg0.win 1).blk t).view.read (Elt Ideal) A (ix2 q k) = A (ix2 q k) := by
  obtain ⟨-, -, e2, e3, -, -, -, -⟩ := idx_facts t
  show A (((cfg0.win 1).blk t).view.emb (ix2 q k)) = A (ix2 q k)
  refine congrArg A (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

/-- The bias block is its whole one-row array at every point. -/
theorem read_bias (c : Dev nD) (A : Buf (Elt Ideal) ((c : Thread nD τ).loc (Pipeline.arrRef spec0 2))) (t : Fin cfg0.N)
    (q : Fin 128) :
    ((cfg0.win 2).blk t).view.read (Elt Ideal) A (ix2 (0 : Fin 1) q) = A (ix2 (0 : Fin 1) q) := by
  obtain ⟨-, -, -, -, e4, e5, -, -⟩ := idx_facts t
  show A (((cfg0.win 2).blk t).view.emb (ix2 (0 : Fin 1) q)) = A (ix2 (0 : Fin 1) q)
  refine congrArg A (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- The result's block at point `t` puts its row `p` at row `5000 · (its row index at t) + p` of the array. -/
theorem result_row (t : Fin cfg0.N) (p : Fin 5000) (q : Fin 128) :
    ((((cfg0.win 3).blk t).view.emb (ix2 p q)) 0).val = win0_3.index t (0 : Fin 2) * 5000 + p.val := by
  show win0_3.index t (0 : Fin 2) * 5000 + 1 * p.val = _
  omega

/-- The result's block at point `t` keeps the column: its entry `(p, q)` sits in column `q` of the array. -/
theorem result_col (t : Fin cfg0.N) (p : Fin 5000) (q : Fin 128) :
    (((cfg0.win 3).blk t).view.emb (ix2 p q)) 1 = q := by
  obtain ⟨-, -, -, -, -, -, -, e7⟩ := idx_facts t
  refine Fin.ext ?_
  show win0_3.index t (1 : Fin 2) * 128 + 1 * q.val = q.val
  omega

/-! ## The cover -/

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v11).slice (win0_3.rect t)).set ↔ _
  rw [View.set_slice_whole, Rect.mem_set_unit]
  exact Iff.rfl

/-- The 20 blocks tile the array: row `r` is in the block of point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

end Cert.KernelIdeal.Blocks

end
-- ==== Proof.KernelValue.lean ====
/-
  The kernel's result array as one function of its inputs.

  At each of its 20 points the region writes a block of 5000 rows of the result: the affine layer `agg · Wᵀ + b`
  restricted to those rows, because a row of the layer depends on the same row of the aggregate only. The blocks tile
  the array, so after the run it holds the layer of the whole aggregate; and the arrays the region finds are the
  host's functions of the launch contents.
-/
import proofs.«100498_j23003844838036_1_alg».proof.Proof.Gen.KernelIdeal.Value
import proofs.«100498_j23003844838036_1_alg».proof.Proof.KernelBlock
import proofs.«100498_j23003844838036_1_alg».proof.Proof.KernelEntry
import proofs.«100498_j23003844838036_1_alg».proof.Proof.KernelBlocks

set_option maxRecDepth 16384

noncomputable section

namespace Cert.KernelIdeal.LayerValue

open Cert.KernelIdeal Cert.KernelIdeal.Gen Idealize.ShloMosaic Idealize.ShloMosaic.TcCoe Idealize.SL.Sem
open Idealize.ShloMosaic.ValueIdx Cert.RowsTimesRows
open Idealize.ShloMosaic.Pipeline (Dat)

variable (m : (ℓ : Loc nD τ sig) → Buf (Elt Ideal) ℓ) (ρ : Dev nD → PrngReg)

/-! ## What a point writes back -/

/-- For ANY three arrays in the input windows' places: the body's stored value over their blocks at point `t` is block
    `t` of the affine layer of the three arrays. The body's value at `(p, q)` is row `p` of the rows block against row
    `q` of the weights plus the bias at `q`; row `p` of the rows block is the first array's row at the place where the
    result's block puts its row `p`; the weights and the bias are read whole. -/
theorem block_eq (c : Dev nD) (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2))) (t : Fin cfg0.N) :
    (cfg0.win 3).cut (grid0.coords t)
        (out0_3 (((cfg0.win 0).blk t).view.read (Elt Ideal) A0) (((cfg0.win 1).blk t).view.read (Elt Ideal) A1)
          (((cfg0.win 2).blk t).view.read (Elt Ideal) A2))
      = ((cfg0.win 3).blk t).view.read (Elt Ideal) (linear A0 A1 (fun q => A2 (ix2 (0 : Fin 1) q))) := by
  unfold out0_3
  rw [View.canon_unit_zero Blocks.hz]
  simp only [View.ld_unit_zero (S := S5000x128) Blocks.hz, View.ld_unit_zero (S := S128x128) Blocks.hz,
    View.ld_unit_zero (S := S1x128) Blocks.hz]
  funext j
  obtain ⟨p, q, rfl⟩ : ∃ (p : Fin 5000) (q : Fin 128), j = ix2 p q := ⟨j 0, j 1, eq_ix2 j⟩
  show k0_pay1 (F := Ideal) (((cfg0.win 0).blk t).view.read (Elt Ideal) A0) (((cfg0.win 1).blk t).view.read (Elt Ideal) A1)
        (((cfg0.win 2).blk t).view.read (Elt Ideal) A2) (ix2 p q)
    = linearAt A0 A1 (fun q => A2 (ix2 (0 : Fin 1) q))
        ((((cfg0.win 3).blk t).view.emb (ix2 p q)) 0) ((((cfg0.win 3).blk t).view.emb (ix2 p q)) 1)
  refine (Block.payload_apply _ _ _ p q).trans ?_
  rw [Blocks.result_col t p q]
  unfold linearAt
  exact congrArg₂ (· + ·)
    (Finset.sum_congr rfl fun k _ => congrArg₂ (· * ·)
      (Blocks.read_rows c A0 t p k (ix2 ((((cfg0.win 3).blk t).view.emb (ix2 p q)) 0) k) (Blocks.result_row t p q) rfl)
      (Blocks.read_weights c A1 t q k))
    (Blocks.read_bias c A2 t q)

/-! ## The array after the run -/

/-- The array the region's result ends holding, from the arrays the region finds in its three input windows' places:
    the affine layer of the aggregate, the weights and the bias row. -/
abbrev layerOf (c : Dev nD) : FVec Ideal S100000x128 .f32 :=
  linear (V m c (Pipeline.arrRef spec0 0)) (V m c (Pipeline.arrRef spec0 1))
    (fun q => V m c (Pipeline.arrRef spec0 2) (ix2 (0 : Fin 1) q))

/-- What point `t` writes back is block `t` of that layer. -/
theorem flushed_eq (c : Dev nD) (t : Fin cfg0.N) :
    (dats m 0 c).flushed 3 t = ((cfg0.win 3).blk t).view.read (Elt Ideal) (layerOf m c) := by
  rw [Value.flushed3]
  unfold iblk
  exact block_eq c (V m c (Pipeline.arrRef spec0 0)) (V m c (Pipeline.arrRef spec0 1)) (V m c (Pipeline.arrRef spec0 2)) t

/-- The array after the run is the layer of the arrays the region finds. -/
theorem final (c : Dev nD) : (dats m 0 c).arrAt 3 cfg0.N = layerOf m c :=
  (dats m 0 c).arrAt_eq_of_cover 3 (layerOf m c) (fun t _ => flushed_eq m c t) Blocks.cover

/-- The arrays the region finds are the host's functions of the launch contents, so the layer is that of the
    aggregated features, the weights and the bias vector. -/
theorem layerOf_eq (c : Dev nD) :
    layerOf m c = linear (Entry.aggregate (m ((c : Thread nD τ).loc main_arg0)) (m ((c : Thread nD τ).loc main_arg1)) (m ((c : Thread nD τ).loc main_arg2)))
      (m ((c : Thread nD τ).loc main_arg3)) (fun q => m ((c : Thread nD τ).loc main_arg4) (ix1 q)) := by
  show linear (V m c main_v9) (V m c main_arg3) (fun q => (V m c main_v10 : FVec Ideal S1x128 .f32) (ix2 (0 : Fin 1) q)) = _
  rw [Entry.entry_rows m c, V_main_arg3 m c]
  exact congrArg (linear _ _) (funext fun q => Entry.entry_bias m c q)

/-! ## The run -/

/-- Every weakly fair execution of the kernel's program terminates with the result array at the affine layer of the
    aggregated features, the weights and the bias, and the arguments unchanged. -/
theorem run : θ_run defs (onTc (τ := τ) (main (F := Ideal))) ⟨m, fun _ => 0, ρ⟩ fun r => ∀ c : Dev nD,
      r.2.mem ((c : Thread nD τ).loc main_v11)
        = linear (Entry.aggregate (m ((c : Thread nD τ).loc main_arg0)) (m ((c : Thread nD τ).loc main_arg1)) (m ((c : Thread nD τ).loc main_arg2)))
            (m ((c : Thread nD τ).loc main_arg3)) (fun q => m ((c : Thread nD τ).loc main_arg4) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (layerOf_eq m c)), (h c).2⟩)
    (Value.run_blocks m ρ)

end Cert.KernelIdeal.LayerValue

end
-- ==== Proof.ReferenceValue.lean ====
/-
  The reference's result as the layer.

  The reference aggregates the features over the edges (a gather of rows at the source nodes, then a scatter-add of
  those rows at the target nodes) and applies one `dot_general` to the aggregate and the weights, contracting the
  second axis of both, then adds the bias vector broadcast `[128] → [1, 128] → [100000, 128]`. Read on the extended
  reals, entry `(p, q)` of the result is `(∑ k, agg[p, k] · W[q, k]) + b[q]`: the affine layer of the aggregate. The
  aggregate itself is never opened here; it is the same function of the inputs on both sides.
-/
import proofs.«100498_j23003844838036_1_alg».proof.Proof.Gen.ReferenceIdeal.Read
import proofs.«100498_j23003844838036_1_alg».proof.Proof.LibRowsTimesRows

noncomputable section

namespace Cert.ReferenceIdeal.RefValue

open Cert.ReferenceIdeal Cert.ReferenceIdeal.Gen Idealize.ShloMosaic Idealize.ShloMosaic.ValueIdx Cert.RowsTimesRows

/-- The reference's product contracts the second axis of both operands: one contracted axis of extent 128, the
    aggregate read at (node, k) and the weights at (output feature, k). -/
theorem dot_contractsRows :
    ContractsRows (a := 100000) (K := 128) (b := 128) dot_S100000x128_S128x128_S100000x128_1_1_0_0_n_n where
  rank := rfl
  size := rfl
  lhs_row := Read.lhs_main_v10_0
  lhs_col := Read.lhs_main_v10_1
  rhs_row := Read.rhs_main_v10_0
  rhs_col := Read.rhs_main_v10_1

/-- The reference's last stage is the affine layer of the aggregated features, the weights and the bias vector. -/
theorem result_eq (x0 : FVec Ideal S100000x128 .f32) (x1 x2 : IVec S1600000 32) (x3 : FVec Ideal S128x128 .f32)
    (x4 : FVec Ideal S128 .f32) :
    Read.val_main_v13 (F := Ideal) x0 x1 x2 x3 x4
      = linear (Read.val_main_v9 (F := Ideal) x0 x1 x2) x3 (fun q => x4 (ix1 q)) := by
  funext i
  obtain ⟨p, q, rfl⟩ : ∃ (p : Fin 100000) (q : Fin 128), i = ix2 p q := ⟨i 0, i 1, eq_ix2 i⟩
  rw [linear_apply]
  unfold Read.val_main_v13 Read.val_main_v10 Read.val_main_v12 Read.val_main_v11
  exact host_apply dot_contractsRows none (Read.val_main_v9 (F := Ideal) x0 x1 x2) x3 x4 _ _ p q

end Cert.ReferenceIdeal.RefValue

end
-- ==== Proof.lean ====
/-
  A graph convolution: the features of each node's in-neighbours are summed, and one affine layer is applied to the sums.

  Both programs first aggregate on the host, with the same operations: a source number below zero is counted from the
  end, the rows of the features at the source nodes are gathered, and those rows are scatter-added into an all-zero
  array at the target nodes. Call the result `agg`, a `[100000, 128]` array; it is one function of the features, the
  sources and the targets, and this proof never looks inside it.

  The kernel then applies the layer block by block: 20 grid points, each reading 5000 rows of `agg`, the whole weight
  matrix `W` (`[128, 128]`, one row per output feature) and the bias as a `[1, 128]` row, narrowing the two operands to
  bf16, multiplying them into a zero accumulator along the second axis of both, and adding the bias row. The reference
  applies one `dot_general` to all of `agg` and `W` along the same axes and adds the bias vector broadcast over the rows.

  Over the extended reals a change of float format is the identity and a zero accumulator adds nothing, so both
  results are, entry by entry, `out[n, o] = (∑ k, agg[n, k] · W[o, k]) + b[o]`: the same finite sum of the same
  products in the same order, plus the same bias. Row `n` of the result depends on row `n` of `agg` only, so the
  kernel's 20 blocks are restrictions of that one array and tile it. No entry has to be finite, and the precondition
  is not used.

  * `Proof/LibRowsTimesRows.lean`: the layer `x · Wᵀ + b` as one function, and the device's and the host's spelling
    read as it, for any sizes.
  * `Proof/KernelBlock.lean`: the kernel body's stored value at an entry.
  * `Proof/KernelValue.lean`: the kernel's result array (block reads, the cover, the run).
  * `Proof/ReferenceValue.lean`: the reference's last stage.
  Here: the aggregate is the same function in both programs, and the five claims.
-/
import proofs.«100498_j23003844838036_1_alg».proof.Defs
import proofs.«100498_j23003844838036_1_alg».proof.Proof.Gen.Kernel
import proofs.«100498_j23003844838036_1_alg».proof.Proof.Gen.Kernel.Skeleton
import proofs.«100498_j23003844838036_1_alg».proof.Proof.Gen.Kernel.Launch
import proofs.«100498_j23003844838036_1_alg».proof.Proof.Gen.Kernel.Points
import proofs.«100498_j23003844838036_1_alg».proof.Proof.Gen.Kernel.Frame
import proofs.«100498_j23003844838036_1_alg».proof.Proof.Gen.KernelIdeal
import proofs.«100498_j23003844838036_1_alg».proof.Proof.Gen.KernelIdeal.Skeleton
import proofs.«100498_j23003844838036_1_alg».proof.Proof.Gen.KernelIdeal.Launch
import proofs.«100498_j23003844838036_1_alg».proof.Proof.Gen.KernelIdeal.Points
import proofs.«100498_j23003844838036_1_alg».proof.Proof.Gen.KernelIdeal.Frame
import proofs.«100498_j23003844838036_1_alg».proof.Proof.Gen.KernelIdeal.Value
import proofs.«100498_j23003844838036_1_alg».proof.Proof.Gen.ReferenceIdeal
import proofs.«100498_j23003844838036_1_alg».proof.Proof.Gen.ReferenceIdeal.Run
import proofs.«100498_j23003844838036_1_alg».proof.Proof.Gen.ReferenceIdeal.Read
import proofs.«100498_j23003844838036_1_alg».proof.Proof.Gen.Pre_finite_inputs
import proofs.«100498_j23003844838036_1_alg».proof.Proof.KernelValue
import proofs.«100498_j23003844838036_1_alg».proof.Proof.ReferenceValue
import Idealize.ShloMosaic.Adequacy
import Idealize.ShloMosaic.Init

noncomputable section

namespace Cert.Proof

open Idealize.ShloMosaic Idealize.SL.Sem

/-- The aggregation over the edges is one function of the features, the sources and the targets in both programs:
    the same host operations with the same dimension numbers and the same constants, applied in the same order. -/
theorem aggregate_eq (x0 : FVec Ideal Cert.KernelIdeal.S100000x128 .f32) (x1 x2 : IVec Cert.KernelIdeal.S1600000 32) :
    Cert.KernelIdeal.Entry.aggregate x0 x1 x2 = Cert.ReferenceIdeal.Read.val_main_v9 (F := Ideal) x0 x1 x2 := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no operation was rewritten. -/
theorem preserves : Cert.preserves_Kernel_KernelIdeal := trivial

/-- From memories that agree on the inputs, the kernel's result array ends at the affine layer of the aggregated
    features, the weights and the bias, and so does the reference's. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2, aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
